-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S5000x128 : Shape := ⟨2, ![5000, 128]⟩
abbrev S5000x1 : Shape := ⟨2, ![5000, 1]⟩

abbrev nBuf : Space → Nat
  | .hbm => 68
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .bf16⟩
  | .hbm, ⟨36, _⟩ => ⟨S128x128, .f32⟩
  | .hbm, ⟨37, _⟩ => ⟨S128x128, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .bf16⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .bf16⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S100000x1_S100000x128_0_1 : S100000x1.BroadcastsInDim S100000x128 (![0, 1] : Fin 2 → Fin S100000x128.rank)
  bitsLt_bf16_f32 : FTy.bits .bf16 < FTy.bits .f32
  transposes_S128x128_S128x128_1_0 : S128x128.Transposes [1, 0] S128x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
import proofs.«105631_j54949811585248_2_alg».proof.Proof.Gen.KernelIdeal.Frame
import Idealize.ShloMosaic.Lib.StableHlo.Run
import Idealize.ShloMosaic.Lib.ValueIdx
import Idealize.ShloMosaic.PureOps.Ideal

/-! The kernel's run with its result named: from any memory with zero counters every weakly fair execution of
    the program on the TensorCores terminates without a fault, and in every final state the result buffer holds
    the last boundary's contents of it while the four argument arrays are as launched. -/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run at any float model: the result buffer `main_v49` ends at the last boundary's contents, the arguments
    as launched. -/
theorem run_value_gen : θ_run defs (onTc (τ := τ) (main (F := F))) ⟨m, fun _ => 0, ρ⟩ (fun r => ∀ c : Dev nD,
      r.2.mem ((c.tc : Thread nD τ).loc main_v49) = Gen.W6 (F := F) m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The run at the ideal floats. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49) = Gen.W6 (F := Ideal) m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_value_gen (F := Ideal) m ρ

end Cert.KernelIdeal.RunValue

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.Spec.lean ====
/-
  The mathematics of a two-layer graph convolution, entry by entry over the extended reals.

  A graph on N = 100000 nodes is given by E = 1700000 directed edges (the listed ones and one loop per node): edge `e`
  has a source word `src e` and a destination word.  An edge contributes to node `s` when its source word, read
  signed, is `s`; the row it reads is the one its (wrapped) destination word names, clamped into the table.  With a
  per-node weight `dis`, the normalised aggregation of a feature table `H` is
      aggR H (s, c) = Σ_{e : src e = s} (dis (row (srcw e)) · dis (row (dstw e))) · H (row (dstw e), c).
  The same number is obtained by scaling the rows of `H` by `dis` first, summing without any per-edge factor
      aggK X (s, c) = Σ_{e : src e = s} X (row (dstw e), c),
  and scaling row `s` of the sum by `dis s` afterwards, because a factor that is nonnegative and not +∞ goes through a
  finite sum of extended reals and the source row of a contributing edge is `s` itself.  A dense layer is the matrix
  product with a 128 × 128 table followed by the maximum with zero.
-/
import proofs.«105631_j54949811585248_2_alg».proof.Proof.LibGatherRows
import proofs.«105631_j54949811585248_2_alg».proof.Proof.LibSumMulNonneg
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨1, ![100000]⟩
abbrev SNx1 : Shape := ⟨2, ![100000, 1]⟩
abbrev SNxD : Shape := ⟨2, ![100000, 128]⟩
abbrev SDxD : Shape := ⟨2, ![128, 128]⟩
abbrev SE : Shape := ⟨1, ![1700000]⟩

/-- The table row a word names: its signed value clamped into `[0, 99999]`. -/
def rowOf (b : BitVec 32) : Fin 100000 := Cert.LibGatherRows.clampRow 100000 (by norm_num) b

/-- The sum, over the edges whose source is node `i 0`, of `X` at the edge's destination row. -/
def aggK (src dstw : SE.Idx → BitVec 32) (X : SNxD.Idx → EReal) : SNxD.Idx → EReal :=
  fun i => ∑ e : Fin 1700000, if (src (ix1 e)).toInt = ((i 0).val : Int) then X (ix2 (rowOf (dstw (ix1 e))) (i 1)) else 0

/-- The same sum with each edge's term weighted by the product of the weights of its two end rows. -/
def aggR (src srcw dstw : SE.Idx → BitVec 32) (dis : SN.Idx → EReal) (H : SNxD.Idx → EReal) : SNxD.Idx → EReal :=
  fun i => ∑ e : Fin 1700000, if (src (ix1 e)).toInt = ((i 0).val : Int)
    then (dis (ix1 (rowOf (srcw (ix1 e)))) * dis (ix1 (rowOf (dstw (ix1 e))))) * H (ix2 (rowOf (dstw (ix1 e))) (i 1)) else 0

/-- Row `r` of `X` multiplied by the weight of node `r`. -/
def scaleRows (dis : SN.Idx → EReal) (X : SNxD.Idx → EReal) : SNxD.Idx → EReal :=
  fun i => dis (ix1 (i 0)) * X i

/-- A dense layer on the rows of `A` scaled by the one-column array `dcol`: entry `(r, c)` is
    `max (Σ_k (A (r, k) · dcol (r, 0)) · Wt (k, c)) 0`. -/
def layer (A : SNxD.Idx → EReal) (dcol : SNx1.Idx → EReal) (Wt : SDxD.Idx → EReal) : SNxD.Idx → EReal :=
  fun i => max (∑ k : Fin 128, (A (ix2 (i 0) k) * dcol (ix2 (i 0) (0 : Fin 1))) * Wt (ix2 k (i 1))) 0

/-- The same layer with row `r` of the result scaled by `dcol (r, 0)` again. -/
def layerScaled (A : SNxD.Idx → EReal) (dcol : SNx1.Idx → EReal) (Wt : SDxD.Idx → EReal) : SNxD.Idx → EReal :=
  fun i => layer A dcol Wt i * dcol (ix2 (i 0) (0 : Fin 1))

/-- The plain dense layer: entry `(r, c)` is `max (Σ_k B (r, k) · Wt (k, c)) 0`. -/
def dense (B : SNxD.Idx → EReal) (Wt : SDxD.Idx → EReal) : SNxD.Idx → EReal :=
  fun i => max (∑ k : Fin 128, B (ix2 (i 0) k) * Wt (ix2 k (i 1))) 0

end Cert.Spec

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«105631_j54949811585248_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.RegionValue.lean ====
/-
  What each of the two dense-layer regions leaves in its result array, as one function of the arrays it was entered with.

  A region walks twenty grid points.  At point `t` it reads rows `5000 t … 5000 t + 4999` of a [100000, 128] array `A`
  and of a one-column array `d`, and the whole 128 × 128 table `Wt`; it scales row `r` of the block by `d (r, 0)`,
  multiplies by the table, takes the maximum with zero (the first region scales row `r` by `d (r, 0)` once more), and
  writes the [5000, 128] result to the same rows of its result array.  Over the extended reals a change of float format is
  the identity and the product into the zero accumulator is the plain sum over the contracted axis, so entry `(p, q)` of
  the block written at `t` is entry `(5000 t + p, q)` of ONE function of `A`, `d`, `Wt` — the layer of the
  specification.  The twenty blocks tile the result array (row `r` lies in block `r / 5000`), hence after the last
  point the array is that function.
-/
import proofs.«105631_j54949811585248_2_alg».proof.Proof.Gen.KernelIdeal.Frame
import proofs.«105631_j54949811585248_2_alg».proof.Proof.Spec
import proofs.«105631_j54949811585248_2_alg».proof.Proof.LibPlainDotFormats
import proofs.«105631_j54949811585248_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

/-- The body's contraction is a plain product of a [5000,128] block with the [128,128] table. -/
theorem plainDot : Cert.LibPlainDot.Plain dot_S5000x128_S128x128_S5000x128_1_0_0_1_n_n := ⟨rfl, rfl, rfl, rfl, rfl, rfl⟩

/-- Entry `(p, q)` of what the first region's body stores: row `p` of the block scaled by its weight, times the table,
    clamped below at zero, scaled by the weight again. -/
theorem pay0_apply (x0 : Vec Ideal S5000x128 .f32) (x1 : Vec Ideal S5000x1 .f32) (x2 : Vec Ideal S128x128 .f32)
    (x1' : Vec Ideal S5000x1 .f32) (p : Fin 5000) (q : Fin 128) :
    k0_pay1 (F := Ideal) x0 x1 x2 x1' (ix2 p q)
      = max (∑ k : Fin 128, (x0 (ix2 p k) * x1 (ix2 p (0 : Fin 1))) * x2 (ix2 k q)) 0 * x1' (ix2 p (0 : Fin 1)) := by
  unfold k0_pay1
  simp only [shapeCast_self]
  rw [truncf_apply, mulf_apply, maximumf_apply, broadcast_apply]
  refine congrArg₂ (· * ·) (congrArg₂ max ?_ Ideal.ofBits_zero_f32) (Cert.LibKeepdims.broadcastTo_a1_ab_apply x1' _ p q)
  refine (plainDot.matmul_zero_apply_formats none _ _ p q).trans ?_
  refine Finset.sum_congr rfl fun k _ => ?_
  show (x0 (ix2 p k) * broadcastTo S5000x128 x1 broadcasts_S5000x1_S5000x128 (ix2 p k)) * x2 (ix2 k q) = _
  rw [Cert.LibKeepdims.broadcastTo_a1_ab_apply x1 _ p k]

/-- Entry `(p, q)` of what the second region's body stores: the same without the last scaling. -/
theorem pay1_apply (x0 : Vec Ideal S5000x128 .f32) (x1 : Vec Ideal S5000x1 .f32) (x2 : Vec Ideal S128x128 .f32)
    (p : Fin 5000) (q : Fin 128) :
    k1_pay1 (F := Ideal) x0 x1 x2 (ix2 p q)
      = max (∑ k : Fin 128, (x0 (ix2 p k) * x1 (ix2 p (0 : Fin 1))) * x2 (ix2 k q)) 0 := by
  unfold k1_pay1
  simp only [shapeCast_self]
  rw [maximumf_apply, broadcast_apply]
  refine congrArg₂ max ?_ Ideal.ofBits_zero_f32
  refine (plainDot.matmul_zero_apply_formats none _ _ p q).trans ?_
  refine Finset.sum_congr rfl fun k _ => ?_
  show (x0 (ix2 p k) * broadcastTo S5000x128 x1 broadcasts_S5000x1_S5000x128 (ix2 p k)) * x2 (ix2 k q) = _
  rw [Cert.LibKeepdims.broadcastTo_a1_ab_apply x1 _ p k]

/-- The first region's stored value at any index of the block. -/
theorem pay0_at (x0 : Vec Ideal S5000x128 .f32) (x1 : Vec Ideal S5000x1 .f32) (x2 : Vec Ideal S128x128 .f32)
    (x1' : Vec Ideal S5000x1 .f32) (j : S5000x128.Idx) :
    k0_pay1 (F := Ideal) x0 x1 x2 x1' j
      = max (∑ k : Fin 128, (x0 (ix2 (j 0) k) * x1 (ix2 (j 0) (0 : Fin 1))) * x2 (ix2 k (j 1))) 0 * x1' (ix2 (j 0) (0 : Fin 1)) :=
  (congrArg (k0_pay1 (F := Ideal) x0 x1 x2 x1') (eq_ix2 j)).trans (pay0_apply x0 x1 x2 x1' (j 0) (j 1))

/-- A block whose rows are rows of `A`, whose weight column is the matching piece of `d` and whose table is `Wt`
    is sent by the body to the matching entries of the scaled layer. -/
theorem block_layerScaled (A : Cert.Spec.SNxD.Idx → EReal) (d : Cert.Spec.SNx1.Idx → EReal) (Wt : Cert.Spec.SDxD.Idx → EReal)
    (x0 : Vec Ideal S5000x128 .f32) (x1 : Vec Ideal S5000x1 .f32) (x2 : Vec Ideal S128x128 .f32)
    (j : S5000x128.Idx) (i : Cert.Spec.SNxD.Idx)
    (h0 : ∀ k : Fin 128, x0 (ix2 (j 0) k) = A (ix2 (i 0) k))
    (h1 : x1 (ix2 (j 0) (0 : Fin 1)) = d (ix2 (i 0) (0 : Fin 1)))
    (h2 : ∀ k : Fin 128, x2 (ix2 k (j 1)) = Wt (ix2 k (i 1))) :
    k0_pay1 (F := Ideal) x0 x1 x2 x1 j = Cert.Spec.layerScaled A d Wt i := by
  refine (pay0_at x0 x1 x2 x1 j).trans ?_
  unfold Cert.Spec.layerScaled Cert.Spec.layer
  rw [h1]
  simp only [h0, h2]

/-- The offsets of a load or store of a whole block are zero on both axes. -/
theorem hz : (![0, 0] : Fin 2 → Nat) = fun _ => 0 := funext fun a => by fin_cases a <;> rfl

/-- The index maps over the grid: at point `t` the blocks of the aggregate, of the weight column and of the
    result start at row block `t`, column block 0; the table's block is always the whole table. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Block `t` of the aggregate is its rows `5000 t … 5000 t + 4999`. -/
theorem blk0_0_apply (c : Dev nD) (t : Fin cfg0.N) (y : S5000x128.Idx) (i : Cert.Spec.SNxD.Idx)
    (h0 : (i 0).val = 5000 * t.val + (y 0).val) (h1 : (i 1).val = (y 1).val) :
    (iblk0 V c 0 t : Vec Ideal S5000x128 .f32) y = V c main_v36 i := by
  obtain ⟨e0, e1, -⟩ := idx_facts0 t
  unfold iblk0
  rw [View.read_apply]
  show V c main_v36 _ = V c main_v36 _
  refine congrArg _ ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Block `t` of the weight column is its rows `5000 t … 5000 t + 4999`. -/
theorem blk0_1_apply (c : Dev nD) (t : Fin cfg0.N) (y : S5000x1.Idx) (i : Cert.Spec.SNx1.Idx)
    (h0 : (i 0).val = 5000 * t.val + (y 0).val) :
    (iblk0 V c 1 t : Vec Ideal S5000x1 .f32) y = V c main_v20 i := by
  obtain ⟨-, -, e2, e3, -⟩ := idx_facts0 t
  have hy : (y 1).val < 1 := idx2_lt1 y
  have hi : (i 1).val < 1 := idx2_lt1 i
  unfold iblk0
  rw [View.read_apply]
  show V c main_v20 _ = V c main_v20 _
  refine congrArg _ ?_
  funext a
  apply Fin.ext
  match a with
  | ⟨0, _⟩ => show win0_1.index t (0 : Fin 2) * 5000 + 1 * (y 0).val = (i 0).val; rw [e2, h0]; omega
  | ⟨1, _⟩ => show win0_1.index t (1 : Fin 2) * 1 + 1 * (y 1).val = (i 1).val; rw [e3]; omega

/-- The table's block at every point is the whole table. -/
theorem blk0_2_apply (c : Dev nD) (t : Fin cfg0.N) (y : S128x128.Idx) :
    (iblk0 V c 2 t : Vec Ideal S128x128 .f32) y = V c main_v24 y := by
  obtain ⟨-, -, -, -, e4, e5, -⟩ := idx_facts0 t
  unfold iblk0
  rw [View.read_apply]
  show V c main_v24 _ = V c main_v24 _
  refine congrArg _ ?_
  funext a
  apply Fin.ext
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-- Where entry `j` of the result's block `t` sits in the result array. -/
theorem out0_emb (t : Fin cfg0.N) (j : S5000x128.Idx) :
    ((((cfg0.win 3).blk t).view.emb j) 0).val = 5000 * t.val + (j 0).val
    ∧ ((((cfg0.win 3).blk t).view.emb j) 1).val = (j 1).val := by
  obtain ⟨-, -, -, -, -, -, e6, e7⟩ := idx_facts0 t
  constructor
  · show win0_3.index t (0 : Fin 2) * 5000 + 1 * (j 0).val = _; rw [e6]; omega
  · show win0_3.index t (1 : Fin 2) * 128 + 1 * (j 1).val = _; rw [e7]; omega

/-- What point `t` of the first region writes back is block `t` of the scaled layer of the arrays the region was
    entered with. -/
theorem flushed0_eq (c : Dev nD) (t : Fin cfg0.N) :
    (dat0 (F := Ideal) V c).flushed 3 t = ((cfg0.win 3).blk t).view.read (Elt Ideal)
      (Cert.Spec.layerScaled (V c main_v36) (V c main_v20) (V c main_v24)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext j
  obtain ⟨o0, o1⟩ := out0_emb t j
  show k0_pay1 (F := Ideal) (iblk0 V c 0 t) (iblk0 V c 1 t) (iblk0 V c 2 t) (iblk0 V c 1 t) j
      = Cert.Spec.layerScaled (V c main_v36) (V c main_v20) (V c main_v24) (((cfg0.win 3).blk t).view.emb j)
  refine block_layerScaled (V c main_v36) (V c main_v20) (V c main_v24) (iblk0 V c 0 t) (iblk0 V c 1 t) (iblk0 V c 2 t)
    j (((cfg0.win 3).blk t).view.emb j) (fun k => ?_) ?_ (fun k => ?_)
  · exact blk0_0_apply V c t _ _ o0 rfl
  · exact blk0_1_apply V c t _ _ o0
  · refine (blk0_2_apply V c t _).trans (congrArg (V c main_v24) ?_)
    funext a
    apply Fin.ext
    match a with
    | ⟨0, _⟩ => rfl
    | ⟨1, _⟩ => exact o1.symm

/-- An index of the result array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v37).slice (win0_3.rect t)).set ↔ _
  rw [View.set_slice_whole, Rect.mem_set_unit]
  exact Iff.rfl

/-- Row `r` of the result lies in the block of point `r / 5000`, which is written back. -/
theorem cover0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- After its twenty grid points the first region's result array holds the scaled layer of the arrays it was entered
    with: the blocks written back tile the array, and each is the matching block of that one function. -/
theorem final0 (c : Dev nD) :
    (Gen.dat0 (F := Ideal) V c).arrAt 3 cfg0.N = Cert.Spec.layerScaled (V c main_v36) (V c main_v20) (V c main_v24) :=
  (dat0 (F := Ideal) V c).arrAt_eq_of_cover 3 (Cert.Spec.layerScaled (V c main_v36) (V c main_v20) (V c main_v24))
    (fun t _ => flushed0_eq V c t) cover0

/-! ## The second region: the same layer without the last row scaling -/

/-- The second region's stored value at any index of the block. -/
theorem pay1_at (x0 : Vec Ideal S5000x128 .f32) (x1 : Vec Ideal S5000x1 .f32) (x2 : Vec Ideal S128x128 .f32)
    (j : S5000x128.Idx) :
    k1_pay1 (F := Ideal) x0 x1 x2 j
      = max (∑ k : Fin 128, (x0 (ix2 (j 0) k) * x1 (ix2 (j 0) (0 : Fin 1))) * x2 (ix2 k (j 1))) 0 :=
  (congrArg (k1_pay1 (F := Ideal) x0 x1 x2) (eq_ix2 j)).trans (pay1_apply x0 x1 x2 (j 0) (j 1))

/-- A block whose rows are rows of `A`, whose weight column is the matching piece of `d` and whose table is `Wt`
    is sent by the second region's body to the matching entries of the layer. -/
theorem block_layer (A : Cert.Spec.SNxD.Idx → EReal) (d : Cert.Spec.SNx1.Idx → EReal) (Wt : Cert.Spec.SDxD.Idx → EReal)
    (x0 : Vec Ideal S5000x128 .f32) (x1 : Vec Ideal S5000x1 .f32) (x2 : Vec Ideal S128x128 .f32)
    (j : S5000x128.Idx) (i : Cert.Spec.SNxD.Idx)
    (h0 : ∀ k : Fin 128, x0 (ix2 (j 0) k) = A (ix2 (i 0) k))
    (h1 : x1 (ix2 (j 0) (0 : Fin 1)) = d (ix2 (i 0) (0 : Fin 1)))
    (h2 : ∀ k : Fin 128, x2 (ix2 k (j 1)) = Wt (ix2 k (i 1))) :
    k1_pay1 (F := Ideal) x0 x1 x2 j = Cert.Spec.layer A d Wt i := by
  refine (pay1_at x0 x1 x2 j).trans ?_
  unfold Cert.Spec.layer
  simp only [h0, h1, h2]

/-- The second region's index maps over its grid: at point `t` the blocks of the aggregate, of the weight column and of the
    result start at row block `t`, column block 0; the table's block is always the whole table. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Second region: block `t` of the aggregate is its rows `5000 t … 5000 t + 4999`. -/
theorem blk1_0_apply (c : Dev nD) (t : Fin cfg1.N) (y : S5000x128.Idx) (i : Cert.Spec.SNxD.Idx)
    (h0 : (i 0).val = 5000 * t.val + (y 0).val) (h1 : (i 1).val = (y 1).val) :
    (iblk1 V c 0 t : Vec Ideal S5000x128 .f32) y = V c main_v48 i := by
  obtain ⟨e0, e1, -⟩ := idx_facts1 t
  unfold iblk1
  rw [View.read_apply]
  show V c main_v48 _ = V c main_v48 _
  refine congrArg _ ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Second region: block `t` of the weight column is its rows `5000 t … 5000 t + 4999`. -/
theorem blk1_1_apply (c : Dev nD) (t : Fin cfg1.N) (y : S5000x1.Idx) (i : Cert.Spec.SNx1.Idx)
    (h0 : (i 0).val = 5000 * t.val + (y 0).val) :
    (iblk1 V c 1 t : Vec Ideal S5000x1 .f32) y = V c main_v20 i := by
  obtain ⟨-, -, e2, e3, -⟩ := idx_facts1 t
  have hy : (y 1).val < 1 := idx2_lt1 y
  have hi : (i 1).val < 1 := idx2_lt1 i
  unfold iblk1
  rw [View.read_apply]
  show V c main_v20 _ = V c main_v20 _
  refine congrArg _ ?_
  funext a
  apply Fin.ext
  match a with
  | ⟨0, _⟩ => show win1_1.index t (0 : Fin 2) * 5000 + 1 * (y 0).val = (i 0).val; rw [e2, h0]; omega
  | ⟨1, _⟩ => show win1_1.index t (1 : Fin 2) * 1 + 1 * (y 1).val = (i 1).val; rw [e3]; omega

/-- Second region: the table's block at every point is the whole table. -/
theorem blk1_2_apply (c : Dev nD) (t : Fin cfg1.N) (y : S128x128.Idx) :
    (iblk1 V c 2 t : Vec Ideal S128x128 .f32) y = V c main_v25 y := by
  obtain ⟨-, -, -, -, e4, e5, -⟩ := idx_facts1 t
  unfold iblk1
  rw [View.read_apply]
  show V c main_v25 _ = V c main_v25 _
  refine congrArg _ ?_
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- Second region: where entry `j` of the result's block `t` sits in the result array. -/
theorem out1_emb (t : Fin cfg1.N) (j : S5000x128.Idx) :
    ((((cfg1.win 3).blk t).view.emb j) 0).val = 5000 * t.val + (j 0).val
    ∧ ((((cfg1.win 3).blk t).view.emb j) 1).val = (j 1).val := by
  obtain ⟨-, -, -, -, -, -, e6, e7⟩ := idx_facts1 t
  constructor
  · show win1_3.index t (0 : Fin 2) * 5000 + 1 * (j 0).val = _; rw [e6]; omega
  · show win1_3.index t (1 : Fin 2) * 128 + 1 * (j 1).val = _; rw [e7]; omega

/-- What point `t` of the second region writes back is block `t` of the layer of the arrays the region was entered with. -/
theorem flushed1_eq (c : Dev nD) (t : Fin cfg1.N) :
    (dat1 (F := Ideal) V c).flushed 3 t = ((cfg1.win 3).blk t).view.read (Elt Ideal)
      (Cert.Spec.layer (V c main_v48) (V c main_v20) (V c main_v25)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S128x128) hz]
  funext j
  obtain ⟨o0, o1⟩ := out1_emb t j
  show k1_pay1 (F := Ideal) (iblk1 V c 0 t) (iblk1 V c 1 t) (iblk1 V c 2 t) j
      = Cert.Spec.layer (V c main_v48) (V c main_v20) (V c main_v25) (((cfg1.win 3).blk t).view.emb j)
  refine block_layer (V c main_v48) (V c main_v20) (V c main_v25) (iblk1 V c 0 t) (iblk1 V c 1 t) (iblk1 V c 2 t)
    j (((cfg1.win 3).blk t).view.emb j) (fun k => ?_) ?_ (fun k => ?_)
  · exact blk1_0_apply V c t _ _ o0 rfl
  · exact blk1_1_apply V c t _ _ o0
  · refine (blk1_2_apply V c t _).trans (congrArg (V c main_v25) ?_)
    funext a
    apply Fin.ext
    match a with
    | ⟨0, _⟩ => rfl
    | ⟨1, _⟩ => exact o1.symm

/-- Second region: an index of the result array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v49).slice (win1_3.rect t)).set ↔ _
  rw [View.set_slice_whole, Rect.mem_set_unit]
  exact Iff.rfl

/-- Second region: row `r` of the result lies in the block of point `r / 5000`, which is written back. -/
theorem cover1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-- After its twenty grid points the second region's result array holds the layer of the arrays it was entered
    with: the blocks written back tile the array, and each is the matching block of that one function. -/
theorem final1 (c : Dev nD) :
    (Gen.dat1 (F := Ideal) V c).arrAt 3 cfg1.N = Cert.Spec.layer (V c main_v48) (V c main_v20) (V c main_v25) :=
  (dat1 (F := Ideal) V c).arrAt_eq_of_cover 3 (Cert.Spec.layer (V c main_v48) (V c main_v20) (V c main_v25))
    (fun t _ => flushed1_eq V c t) cover1

end Cert.KernelIdeal.RegionValue

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.HostAgg.lean ====
import proofs.«105631_j54949811585248_2_alg».proof.Proof.Gen.KernelIdeal
import proofs.«105631_j54949811585248_2_alg».proof.Proof.Spec
import proofs.«105631_j54949811585248_2_alg».proof.Proof.LibJoinedRows
import proofs.«105631_j54949811585248_2_alg».proof.Proof.LibKeepdims
import proofs.«105631_j54949811585248_2_alg».proof.Proof.LibScatterRows
import proofs.«105631_j54949811585248_2_alg».proof.Proof.LibGatherRows
import Idealize.ShloMosaic.Lib.ValueIdx
import Idealize.ShloMosaic.PureOps.Ideal
import Idealize.ShloMosaic.PureOps.Ideal.Laws

/-!
  The two host computations around the regions, entry by entry over the extended reals.

  * The aggregation: a zero array into which, for every edge, the row of a table that the edge's destination word
    names (clamped into the table) is added at the row the edge's source word names (dropped when that word names no
    row).  At entry `(s, c)` this is the sum, over the edges whose source word read signed is `s`, of the table at
    the destination row, column `c`.  Rounding the table to bf16 before the gather and widening the gathered rows
    change nothing: both conversions are the identity on extended reals.
  * The scaled table: the per-node weights viewed as a column, spread across the 128 columns and multiplied into the
    features, is row `r` of the features times the weight of node `r`.
-/

noncomputable section

open scoped BigOperators

namespace Cert.KernelIdeal.HostAgg

open Cert.KernelIdeal Cert.KernelIdeal.Gen Idealize.ShloMosaic Idealize.ShloMosaic.ValueIdx

/-- The host's aggregation as the program spells it: the rows of a table `T` gathered at the edges' destination
    words (the gathered rows widened, the identity on extended reals) and added into a zero array at the rows the
    edges' source words name. -/
def scat (src dstw : S1700000.Idx → BitVec 32) (T : FVec Ideal S100000x128 .bf16) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 src)
    (extf .f32 (Host.gather gather_S100000x128_S1700000x1_S1700000x128_1_0_n_n_0_1_1128 T
      (broadcastInDim S1700000x1 ![0] bcast_S1700000_S1700000x1_0 dstw)) bitsLt_bf16_f32)

/-- Entry by entry it is the sum, over the edges whose source is the node, of the table at the edge's destination row. -/
theorem scat_eq_aggK (src dstw : S1700000.Idx → BitVec 32) (T : FVec Ideal S100000x128 .bf16) :
    scat src dstw T = Cert.Spec.aggK src dstw T := by
  funext i
  obtain ⟨n, q, rfl⟩ : ∃ (n : Fin 100000) (q : Fin 128), i = ix2 n q := ⟨i 0, i 1, eq_ix2 i⟩
  unfold scat Cert.Spec.aggK
  rw [Cert.LibScatterRows.host_scatterAdd_rows_apply _ scatter_S100000x128_S1700000x1_S1700000x128_1_0_0_1 rfl,
    Cert.LibJoinedRows.bcast_scalar_apply, constant_apply, Ideal.ofBits_zero_f32, zero_add]
  refine Finset.sum_congr rfl fun e _ => ?_
  rw [Cert.LibJoinedRows.bcast_vec_col_apply, extf_apply,
    Cert.LibGatherRows.host_gather_rows_apply _ (by norm_num) gather_S100000x128_S1700000x1_S1700000x128_1_0_n_n_0_1_1128 rfl,
    Cert.LibJoinedRows.bcast_vec_col_apply]
  rfl

/-- The weights as a column, spread across the columns and multiplied into a table, then rounded (the identity on
    extended reals), as the program spells it. -/
def scaledTable (dis : FVec Ideal S100000 .f32) (X : FVec Ideal S100000x128 .f32) : FVec Ideal S100000x128 .bf16 :=
  truncf .bf16 (mulf (F := Ideal) (broadcastInDim S100000x128 ![0, 1] bcast_S100000x1_S100000x128_0_1
    (shapeCast S100000x1 dis shapeCasts_S100000_S100000x1)) X) bitsLt_bf16_f32

/-- Entry by entry it is row `r` of the table times the weight of node `r`. -/
theorem scaledTable_eq (dis : FVec Ideal S100000 .f32) (X : FVec Ideal S100000x128 .f32) :
    scaledTable dis X = Cert.Spec.scaleRows dis X := by
  funext i
  obtain ⟨n, q, rfl⟩ : ∃ (n : Fin 100000) (q : Fin 128), i = ix2 n q := ⟨i 0, i 1, eq_ix2 i⟩
  unfold scaledTable
  rw [truncf_apply, mulf_apply, Cert.LibJoinedRows.bcast_col_rows_apply, Cert.LibKeepdims.shapeCast_a_a1_apply]
  rfl

end Cert.KernelIdeal.HostAgg

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.HostStages.lean ====
import proofs.«105631_j54949811585248_2_alg».proof.Proof.Gen.KernelIdeal.Frame
import proofs.«105631_j54949811585248_2_alg».proof.Proof.Gen.ReferenceIdeal.Read
import proofs.«105631_j54949811585248_2_alg».proof.Proof.Spec
import proofs.«105631_j54949811585248_2_alg».proof.Proof.LibJoinedRows
import proofs.«105631_j54949811585248_2_alg».proof.Proof.LibKeepdims
import proofs.«105631_j54949811585248_2_alg».proof.Proof.LibKeeps
import Idealize.ShloMosaic.Lib.StableHlo.Run
import Idealize.ShloMosaic.Lib.ValueIdx
import Idealize.ShloMosaic.PureOps.Ideal
import Idealize.ShloMosaic.PureOps.Ideal.Laws

/-!
  The buffers the host operations write before the first region, stretch by stretch.

  A stretch's result at a buffer is the composition of the operations that wrote it, applied to what the previous
  stretch left; a buffer no operation of a stretch writes keeps its contents.  The edge sources and destinations
  (the listed edges joined with one loop per node), the degree-minus-one count, its clamp below by one and the
  per-node weight are the same compositions the reference's staged values name, so they are stated with those names;
  the weight column and the two transposed tables are stated as the layout operation applied to them.
-/

set_option maxRecDepth 16384

noncomputable section

open scoped BigOperators

namespace Cert.KernelIdeal.HostValues

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)

/-! ## The buffers after the first stretch of host operations -/

theorem w1_v3 : (Gen.W1 (F := Ideal) m ρ c (Proc.devRef .tc main_v3) : S1700000.Idx → BitVec 32)
    = Cert.ReferenceIdeal.Read.val_main_v3 (F := Ideal) a3 := by
  dsimp only [Gen.W1, Gen.W0]
  simp only [Gen.hostOps0]
  after_results
  rfl

theorem w1_v6 : (Gen.W1 (F := Ideal) m ρ c (Proc.devRef .tc main_v6) : S1700000.Idx → BitVec 32)
    = Cert.ReferenceIdeal.Read.val_main_v6 (F := Ideal) a3 := by
  dsimp only [Gen.W1, Gen.W0]
  simp only [Gen.hostOps0]
  after_results
  rfl

theorem w1_v16 : (Gen.W1 (F := Ideal) m ρ c (Proc.devRef .tc main_v16) : S100000.Idx → EReal)
    = Cert.ReferenceIdeal.Read.val_main_v16 (F := Ideal) a3 := by
  dsimp only [Gen.W1, Gen.W0]
  simp only [Gen.hostOps0]
  after_results
  rfl

theorem w1_cst3 : (Gen.W1 (F := Ideal) m ρ c (Proc.devRef .tc main_cst_3) : S_.Idx → EReal)
    = Cert.ReferenceIdeal.Read.val_main_cst_3 (F := Ideal) := by
  dsimp only [Gen.W1, Gen.W0]
  simp only [Gen.hostOps0]
  after_results
  rfl

theorem w1_arg0 : Gen.W1 (F := Ideal) m ρ c (Proc.devRef .tc main_arg0) = a0 := by
  show StableHlo.after hostOps0 (Gen.W0 (F := Ideal) m ρ c) (Proc.devRef .tc main_arg0) = Gen.W0 (F := Ideal) m ρ c (Proc.devRef .tc main_arg0)
  keeps_host hostOps0
theorem w1_arg1 : Gen.W1 (F := Ideal) m ρ c (Proc.devRef .tc main_arg1) = a1 := by
  show StableHlo.after hostOps0 (Gen.W0 (F := Ideal) m ρ c) (Proc.devRef .tc main_arg1) = Gen.W0 (F := Ideal) m ρ c (Proc.devRef .tc main_arg1)
  keeps_host hostOps0
theorem w1_arg2 : Gen.W1 (F := Ideal) m ρ c (Proc.devRef .tc main_arg2) = a2 := by
  show StableHlo.after hostOps0 (Gen.W0 (F := Ideal) m ρ c) (Proc.devRef .tc main_arg2) = Gen.W0 (F := Ideal) m ρ c (Proc.devRef .tc main_arg2)
  keeps_host hostOps0

/-! ## After the inlined clip -/

theorem w2_v17 : (Gen.W2 (F := Ideal) m ρ c (Proc.devRef .tc main_v17) : S100000.Idx → EReal)
    = Cert.ReferenceIdeal.Read.val_main_v17 (F := Ideal) a3 := by
  have h16 := w1_v16 m ρ c
  have hc := w1_cst3 m ρ c
  show StableHlo.after hostOps0_1 (Gen.W1 (F := Ideal) m ρ c) (Proc.devRef .tc main_v17) = _
  generalize Gen.W1 (F := Ideal) m ρ c = V at h16 hc ⊢
  simp only [Gen.hostOps0_1]
  after_results
  show maximumf (F := Ideal) (broadcastInDim S100000 ![] bcast_S_S100000 (id (V (Proc.devRef .tc main_cst_3) : S_.Idx → EReal)))
    (V (Proc.devRef .tc main_v16) : S100000.Idx → EReal) = _
  rw [h16, hc]
  rfl

theorem w2_v3 : (Gen.W2 (F := Ideal) m ρ c (Proc.devRef .tc main_v3) : S1700000.Idx → BitVec 32)
    = Cert.ReferenceIdeal.Read.val_main_v3 (F := Ideal) a3 := by
  refine Eq.trans ?_ (w1_v3 m ρ c)
  show StableHlo.after hostOps0_1 (Gen.W1 (F := Ideal) m ρ c) (Proc.devRef .tc main_v3) = Gen.W1 (F := Ideal) m ρ c (Proc.devRef .tc main_v3)
  keeps_host hostOps0_1

theorem w2_v6 : (Gen.W2 (F := Ideal) m ρ c (Proc.devRef .tc main_v6) : S1700000.Idx → BitVec 32)
    = Cert.ReferenceIdeal.Read.val_main_v6 (F := Ideal) a3 := by
  refine Eq.trans ?_ (w1_v6 m ρ c)
  show StableHlo.after hostOps0_1 (Gen.W1 (F := Ideal) m ρ c) (Proc.devRef .tc main_v6) = Gen.W1 (F := Ideal) m ρ c (Proc.devRef .tc main_v6)
  keeps_host hostOps0_1

theorem w2_arg0 : Gen.W2 (F := Ideal) m ρ c (Proc.devRef .tc main_arg0) = a0 := by
  refine Eq.trans ?_ (w1_arg0 m ρ c)
  show StableHlo.after hostOps0_1 (Gen.W1 (F := Ideal) m ρ c) (Proc.devRef .tc main_arg0) = Gen.W1 (F := Ideal) m ρ c (Proc.devRef .tc main_arg0)
  keeps_host hostOps0_1
theorem w2_arg1 : Gen.W2 (F := Ideal) m ρ c (Proc.devRef .tc main_arg1) = a1 := by
  refine Eq.trans ?_ (w1_arg1 m ρ c)
  show StableHlo.after hostOps0_1 (Gen.W1 (F := Ideal) m ρ c) (Proc.devRef .tc main_arg1) = Gen.W1 (F := Ideal) m ρ c (Proc.devRef .tc main_arg1)
  keeps_host hostOps0_1
theorem w2_arg2 : Gen.W2 (F := Ideal) m ρ c (Proc.devRef .tc main_arg2) = a2 := by
  refine Eq.trans ?_ (w1_arg2 m ρ c)
  show StableHlo.after hostOps0_1 (Gen.W1 (F := Ideal) m ρ c) (Proc.devRef .tc main_arg2) = Gen.W1 (F := Ideal) m ρ c (Proc.devRef .tc main_arg2)
  keeps_host hostOps0_1

/-! ## At the first region's entry -/

theorem w3_v20_whole : (Gen.W3 (F := Ideal) m ρ c (Proc.devRef .tc main_v20) : S100000x1.Idx → EReal)
    = shapeCast S100000x1 (Cert.ReferenceIdeal.Read.val_main_v19 (F := Ideal) a3) shapeCasts_S100000_S100000x1 := by
  have h17 := w2_v17 m ρ c
  show StableHlo.after hostOps0_2 (Gen.W2 (F := Ideal) m ρ c) (Proc.devRef .tc main_v20) = _
  generalize Gen.W2 (F := Ideal) m ρ c = V at h17 ⊢
  simp only [Gen.hostOps0_2]
  after_results
  rw [h17]
  rfl

theorem w3_v24_whole : (Gen.W3 (F := Ideal) m ρ c (Proc.devRef .tc main_v24) : S128x128.Idx → EReal)
    = transpose S128x128 [1, 0] (a1 : S128x128.Idx → EReal) transposes_S128x128_S128x128_1_0 := by
  have h1 := w2_arg1 m ρ c
  show StableHlo.after hostOps0_2 (Gen.W2 (F := Ideal) m ρ c) (Proc.devRef .tc main_v24) = _
  generalize Gen.W2 (F := Ideal) m ρ c = V at h1 ⊢
  simp only [Gen.hostOps0_2]
  after_results
  rw [h1]

theorem w3_v25_whole : (Gen.W3 (F := Ideal) m ρ c (Proc.devRef .tc main_v25) : S128x128.Idx → EReal)
    = transpose S128x128 [1, 0] (a2 : S128x128.Idx → EReal) transposes_S128x128_S128x128_1_0 := by
  have h2 := w2_arg2 m ρ c
  show StableHlo.after hostOps0_2 (Gen.W2 (F := Ideal) m ρ c) (Proc.devRef .tc main_v25) = _
  generalize Gen.W2 (F := Ideal) m ρ c = V at h2 ⊢
  simp only [Gen.hostOps0_2]
  after_results
  rw [h2]

theorem w3_v3 : (Gen.W3 (F := Ideal) m ρ c (Proc.devRef .tc main_v3) : S1700000.Idx → BitVec 32)
    = Cert.ReferenceIdeal.Read.val_main_v3 (F := Ideal) a3 := by
  refine Eq.trans ?_ (w2_v3 m ρ c)
  show StableHlo.after hostOps0_2 (Gen.W2 (F := Ideal) m ρ c) (Proc.devRef .tc main_v3) = Gen.W2 (F := Ideal) m ρ c (Proc.devRef .tc main_v3)
  keeps_host hostOps0_2

theorem w3_v6 : (Gen.W3 (F := Ideal) m ρ c (Proc.devRef .tc main_v6) : S1700000.Idx → BitVec 32)
    = Cert.ReferenceIdeal.Read.val_main_v6 (F := Ideal) a3 := by
  refine Eq.trans ?_ (w2_v6 m ρ c)
  show StableHlo.after hostOps0_2 (Gen.W2 (F := Ideal) m ρ c) (Proc.devRef .tc main_v6) = Gen.W2 (F := Ideal) m ρ c (Proc.devRef .tc main_v6)
  keeps_host hostOps0_2

end Cert.KernelIdeal.HostValues

end
-- ==== Proof.HostValues.lean ====
import proofs.«105631_j54949811585248_2_alg».proof.Proof.Gen.KernelIdeal.Frame
import proofs.«105631_j54949811585248_2_alg».proof.Proof.Gen.ReferenceIdeal.Read
import proofs.«105631_j54949811585248_2_alg».proof.Proof.Spec
import proofs.«105631_j54949811585248_2_alg».proof.Proof.HostAgg
import proofs.«105631_j54949811585248_2_alg».proof.Proof.HostStages
import proofs.«105631_j54949811585248_2_alg».proof.Proof.LibJoinedRows
import proofs.«105631_j54949811585248_2_alg».proof.Proof.LibKeepdims
import proofs.«105631_j54949811585248_2_alg».proof.Proof.LibKeeps
import Idealize.ShloMosaic.Lib.StableHlo.Run
import Idealize.ShloMosaic.Lib.ValueIdx
import Idealize.ShloMosaic.PureOps.Ideal
import Idealize.ShloMosaic.PureOps.Ideal.Laws

/-!
  What the host operations leave in the buffers the two regions read.

  The program computes, before the first region, the edge sources and destinations (the listed edges joined with one
  loop per node), the per-node weight `(max (deg, 1))^(-1/2)`, its column view, the two transposed 128 × 128 tables
  and the aggregation of the weight-scaled features; between the regions, the aggregation of the first region's
  result.  Each buffer is followed stretch by stretch from the launch memory: a stretch's result at a buffer is the
  composition of the operations that wrote it, applied to what the previous stretch left, and a buffer no operation
  of a stretch writes keeps its contents.  The integer and weight terms are the same compositions the reference's
  staged values name, so they are stated with those names; the aggregations are then read entry by entry.
-/

set_option maxRecDepth 16384

noncomputable section

open scoped BigOperators

namespace Cert.KernelIdeal.HostValues

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)

/-! ## The aggregation before the first region -/

/-- The aggregation of the weight-scaled features, as the program composes it. -/
theorem w3_v36_whole : (Gen.W3 (F := Ideal) m ρ c (Proc.devRef .tc main_v36) : S100000x128.Idx → EReal)
    = HostAgg.scat (Cert.ReferenceIdeal.Read.val_main_v3 (F := Ideal) a3) (Cert.ReferenceIdeal.Read.val_main_v31 (F := Ideal) a3)
        (HostAgg.scaledTable (Cert.ReferenceIdeal.Read.val_main_v19 (F := Ideal) a3) a0) := by
  have h17 := w2_v17 m ρ c
  have h3 := w2_v3 m ρ c
  have h6 := w2_v6 m ρ c
  have h0 := w2_arg0 m ρ c
  show StableHlo.after hostOps0_2 (Gen.W2 (F := Ideal) m ρ c) (Proc.devRef .tc main_v36) = _
  generalize Gen.W2 (F := Ideal) m ρ c = V at h17 h3 h6 h0 ⊢
  simp only [Gen.hostOps0_2]
  after_results_simp
  rw [h17, h3, h6, h0]
  rfl

/-! ## Across the first region and the stretch after it -/

theorem w4_v20 : Gen.W4 (F := Ideal) m ρ c (Proc.devRef .tc main_v20) = Gen.W3 (F := Ideal) m ρ c (Proc.devRef .tc main_v20) := by
  refine (Gen.W4_arr (F := Ideal) m ρ c 1).trans ?_
  refine (Idealize.ShloMosaic.Pipeline.Dat.arrAt_in (Gen.dat0 (F := Ideal) (Gen.V3 m ρ) c) 1 rfl cfg0.N).trans ?_
  exact Gen.A_eq0 (Gen.V3 m ρ) c 1

theorem w4_v3 : (Gen.W4 (F := Ideal) m ρ c (Proc.devRef .tc main_v3) : S1700000.Idx → BitVec 32)
    = Cert.ReferenceIdeal.Read.val_main_v3 (F := Ideal) a3 :=
  (Gen.W4_of_ne (F := Ideal) m ρ c main_v3 (by decide)).trans (w3_v3 m ρ c)

theorem w4_v6 : (Gen.W4 (F := Ideal) m ρ c (Proc.devRef .tc main_v6) : S1700000.Idx → BitVec 32)
    = Cert.ReferenceIdeal.Read.val_main_v6 (F := Ideal) a3 :=
  (Gen.W4_of_ne (F := Ideal) m ρ c main_v6 (by decide)).trans (w3_v6 m ρ c)

theorem w5_v25_whole : (Gen.W5 (F := Ideal) m ρ c (Proc.devRef .tc main_v25) : S128x128.Idx → EReal)
    = transpose S128x128 [1, 0] (a2 : S128x128.Idx → EReal) transposes_S128x128_S128x128_1_0 := by
  refine Eq.trans ?_ ((Gen.W4_of_ne (F := Ideal) m ρ c main_v25 (by decide)).trans (w3_v25_whole m ρ c))
  show StableHlo.after hostOps1 (Gen.W4 (F := Ideal) m ρ c) (Proc.devRef .tc main_v25) = Gen.W4 (F := Ideal) m ρ c (Proc.devRef .tc main_v25)
  keeps_host hostOps1

/-! ## The statements the regions' value proofs use -/

/-- The first region's first window: the aggregation, over the edges into a node, of the weight-scaled features. -/
theorem v36_eq : Gen.W3 (F := Ideal) m ρ c (Proc.devRef .tc main_v36)
    = Cert.Spec.aggK (Cert.ReferenceIdeal.Read.val_main_v3 (F := Ideal) a3) (Cert.ReferenceIdeal.Read.val_main_v31 (F := Ideal) a3)
        (Cert.Spec.scaleRows (Cert.ReferenceIdeal.Read.val_main_v19 (F := Ideal) a3) a0) := by
  refine (w3_v36_whole m ρ c).trans ?_
  rw [HostAgg.scaledTable_eq, HostAgg.scat_eq_aggK]

/-- The weight column: its one entry of row `r` is the weight of node `r`. -/
theorem v20_eq (j : S100000x1.Idx) : Gen.W3 (F := Ideal) m ρ c (Proc.devRef .tc main_v20) j
    = Cert.ReferenceIdeal.Read.val_main_v19 (F := Ideal) a3 (ix1 (j 0)) := by
  obtain ⟨n, u, rfl⟩ : ∃ (n : Fin 100000) (u : Fin 1), j = ix2 n u := ⟨j 0, j 1, eq_ix2 j⟩
  refine (congrFun (w3_v20_whole m ρ c) (ix2 n u)).trans ?_
  exact Cert.LibKeepdims.shapeCast_a_a1_apply _ _ n u

/-- The first table is the transpose of the first weight argument. -/
theorem v24_eq (k c' : Fin 128) : Gen.W3 (F := Ideal) m ρ c (Proc.devRef .tc main_v24) (ix2 k c') = a1 (ix2 c' k) := by
  refine (congrFun (w3_v24_whole m ρ c) (ix2 k c')).trans ?_
  exact Cert.LibJoinedRows.transpose2_apply _ _ k c'

/-- The second region's first window: the aggregation of what the first region left. -/
theorem v48_eq : Gen.W5 (F := Ideal) m ρ c (Proc.devRef .tc main_v48)
    = Cert.Spec.aggK (Cert.ReferenceIdeal.Read.val_main_v3 (F := Ideal) a3) (Cert.ReferenceIdeal.Read.val_main_v31 (F := Ideal) a3)
        (Gen.W4 (F := Ideal) m ρ c (Proc.devRef .tc main_v37)) := by
  have h3 := w4_v3 m ρ c
  have h6 := w4_v6 m ρ c
  show StableHlo.after hostOps1 (Gen.W4 (F := Ideal) m ρ c) (Proc.devRef .tc main_v48) = _
  generalize Gen.W4 (F := Ideal) m ρ c = V at h3 h6 ⊢
  simp only [Gen.hostOps1]
  after_results
  rw [h3, h6]
  exact HostAgg.scat_eq_aggK (Cert.ReferenceIdeal.Read.val_main_v3 (F := Ideal) a3) (Cert.ReferenceIdeal.Read.val_main_v31 (F := Ideal) a3) (V (Proc.devRef .tc main_v37))

/-- The weight column is the same at the second region's entry: no operation in between writes it, and the first
    region only reads it. -/
theorem v20_eq5 : Gen.W5 (F := Ideal) m ρ c (Proc.devRef .tc main_v20) = Gen.W3 (F := Ideal) m ρ c (Proc.devRef .tc main_v20) := by
  refine Eq.trans ?_ (w4_v20 m ρ c)
  show StableHlo.after hostOps1 (Gen.W4 (F := Ideal) m ρ c) (Proc.devRef .tc main_v20) = Gen.W4 (F := Ideal) m ρ c (Proc.devRef .tc main_v20)
  keeps_host hostOps1

/-- The second table is the transpose of the second weight argument. -/
theorem v25_eq (k c' : Fin 128) : Gen.W5 (F := Ideal) m ρ c (Proc.devRef .tc main_v25) (ix2 k c') = a2 (ix2 c' k) := by
  refine (congrFun (w5_v25_whole m ρ c) (ix2 k c')).trans ?_
  exact Cert.LibJoinedRows.transpose2_apply _ _ k c'

end Cert.KernelIdeal.HostValues

end
-- ==== Proof.RefValue.lean ====
/-
  The reference's result, entry by entry.

  The reference computes the per-node weight `dis`, then twice: gathers the rows of the current table at the wrapped
  destination words, multiplies edge `e`'s row by `dis (row (srcw e)) · dis (row (dstw e))`, adds it into the row its
  source word names, multiplies by a transposed 128 × 128 table and takes the maximum with zero.  Read at an entry,
  each aggregation is the doubly weighted sum `Cert.Spec.aggR` and each product `Cert.Spec.dense`.
-/
import proofs.«105631_j54949811585248_2_alg».proof.Proof.Gen.ReferenceIdeal.Read
import proofs.«105631_j54949811585248_2_alg».proof.Proof.Spec
import proofs.«105631_j54949811585248_2_alg».proof.Proof.LibScatterRows
import proofs.«105631_j54949811585248_2_alg».proof.Proof.LibGatherRows
import proofs.«105631_j54949811585248_2_alg».proof.Proof.LibPlainDot

noncomputable section

open scoped BigOperators

namespace Cert.ReferenceIdeal.RefValue

open Cert.ReferenceIdeal Cert.ReferenceIdeal.Gen Cert.ReferenceIdeal.Read Idealize.ShloMosaic Idealize.ShloMosaic.TcCoe
  Idealize.ShloMosaic.ValueIdx

variable (x3 : (⟨S2x1600000, .i32⟩ : BufTy).Contents (Elt Ideal))

/-- Entry `e` of the one-column list of source words is source word `e`. -/
theorem src_col (e : Fin 1700000) :
    val_main_v62 (F := Ideal) x3 (Cert.LibScatterRows.rowIdx e) = val_main_v3 (F := Ideal) x3 (ix1 e) := by
  rw [val_main_v62_apply]
  refine congrArg _ (funext fun a => ?_)
  match a with
  | ⟨0, _⟩ => rfl

/-- Entry `e` of the one-column list of wrapped destination words is wrapped destination word `e`. -/
theorem dst_col (e : Fin 1700000) :
    val_main_v57 (F := Ideal) x3 (Cert.LibGatherRows.rowIdx e) = val_main_v31 (F := Ideal) x3 (ix1 e) := by
  rw [val_main_v57_apply]
  refine congrArg _ (funext fun a => ?_)
  match a with
  | ⟨0, _⟩ => rfl

/-- The weight of edge `e`, spread along its row: the product of the weights of its two end rows. -/
theorem weight_row (e : Fin 1700000) (q : Fin 128) :
    val_main_v59 (F := Ideal) x3 (ix2 e q)
      = val_main_v19 (F := Ideal) x3 (ix1 (Cert.Spec.rowOf (val_main_v24 (F := Ideal) x3 (ix1 e))))
        * val_main_v19 (F := Ideal) x3 (ix1 (Cert.Spec.rowOf (val_main_v31 (F := Ideal) x3 (ix1 e)))) := by
  rw [val_main_v59_apply, val_main_v51_apply, val_main_v34_apply, Ideal.mulf_def]
  have hi : idx_main_v51 (idx_main_v59 (ix2 e q)) = ix1 e := funext fun a => by
    match a with
    | ⟨0, _⟩ => rfl
  rw [hi]
  unfold val_main_v26 val_main_v33
  rw [Cert.LibGatherRows.host_gather_vec_apply gather_S100000_S1700000x1_S1700000_n_0_n_n_0_1_1_wf (by norm_num)
      gather_S100000_S1700000x1_S1700000_n_0_n_n_0_1_1 rfl,
    Cert.LibGatherRows.host_gather_vec_apply gather_S100000_S1700000x1_S1700000_n_0_n_n_0_1_1_wf (by norm_num)
      gather_S100000_S1700000x1_S1700000_n_0_n_n_0_1_1 rfl]
  have h25 : val_main_v25 (F := Ideal) x3 (Cert.LibGatherRows.rowIdx e) = val_main_v24 (F := Ideal) x3 (ix1 e) := by
    rw [val_main_v25_apply]
    refine congrArg _ (funext fun a => ?_)
    match a with
    | ⟨0, _⟩ => rfl
  have h32 : val_main_v32 (F := Ideal) x3 (Cert.LibGatherRows.rowIdx e) = val_main_v31 (F := Ideal) x3 (ix1 e) := by
    rw [val_main_v32_apply]
    refine congrArg _ (funext fun a => ?_)
    match a with
    | ⟨0, _⟩ => rfl
  rw [h25, h32]
  rfl

/-- THE AGGREGATION: rows gathered at the wrapped destinations, weighted per edge, added into the source rows. -/
theorem agg_read (H : FVec Ideal S100000x128 .f32) :
    Host.scatterAdd (F := Ideal) scatter_S100000x128_S1700000x1_S1700000x128_1_0_0_1 (val_main_v61 (F := Ideal)) (val_main_v62 (F := Ideal) x3)
        (mulf (F := Ideal) (val_main_v59 (F := Ideal) x3)
          (Host.gather gather_S100000x128_S1700000x1_S1700000x128_1_0_n_n_0_1_1128 H (val_main_v57 (F := Ideal) x3)))
      = Cert.Spec.aggR (val_main_v3 (F := Ideal) x3) (val_main_v24 (F := Ideal) x3) (val_main_v31 (F := Ideal) x3)
          (val_main_v19 (F := Ideal) x3) H := by
  funext i
  obtain ⟨n, q, rfl⟩ : ∃ (n : Fin 100000) (q : Fin 128), i = ix2 n q := ⟨i 0, i 1, eq_ix2 i⟩
  rw [Cert.LibScatterRows.host_scatterAdd_rows_apply scatter_S100000x128_S1700000x1_S1700000x128_1_0_0_1_wf
    scatter_S100000x128_S1700000x1_S1700000x128_1_0_0_1 rfl]
  rw [val_main_v61_apply, val_main_cst_13_apply, Ideal.ofBits_def, Ideal.ofBits_zero_f32, zero_add]
  unfold Cert.Spec.aggR
  refine Finset.sum_congr rfl fun e _ => ?_
  rw [src_col]
  refine if_congr Iff.rfl ?_ rfl
  rw [mulf_apply, weight_row, Cert.LibGatherRows.host_gather_rows_apply gather_S100000x128_S1700000x1_S1700000x128_1_0_n_n_0_1_1128_wf
    (by norm_num) gather_S100000x128_S1700000x1_S1700000x128_1_0_n_n_0_1_1128 rfl, dst_col]
  rfl

/-- THE PRODUCT AND THE MAXIMUM WITH ZERO. -/
theorem dense_read (B : FVec Ideal S100000x128 .f32) (Wt : FVec Ideal S128x128 .f32) :
    maximumf (F := Ideal) (Host.dotGeneral (F := Ideal) dot_S100000x128_S128x128_S100000x128_1_0_0_1_n_n none B Wt) (val_main_call2_v0 (F := Ideal))
      = Cert.Spec.dense B Wt := by
  funext i
  obtain ⟨n, q, rfl⟩ : ∃ (n : Fin 100000) (q : Fin 128), i = ix2 n q := ⟨i 0, i 1, eq_ix2 i⟩
  show FloatOps.maximumf (Host.dotGeneral dot_S100000x128_S128x128_S100000x128_1_0_0_1_n_n none B Wt (ix2 n q))
      (val_main_call2_v0 (F := Ideal) (ix2 n q)) = max (∑ k : Fin 128, B (ix2 n k) * Wt (ix2 k q)) 0
  rw [val_main_call2_v0_apply, val_main_call2_cst_apply, Ideal.ofBits_def, Ideal.ofBits_zero_f32, Ideal.maximumf_def]
  simp only [Host.dotGeneral]
  rw [Cert.LibPlainDot.Plain.dotGeneral_apply ⟨rfl, rfl, rfl, rfl, rfl, rfl⟩]

/-- THE REFERENCE'S RESULT: two aggregations, each followed by the product with a transposed table and the maximum with
    zero. -/
theorem result_eq (x0 : FVec Ideal S100000x128 .f32) (x1 x2 : FVec Ideal S128x128 .f32) :
    val_main_v66 (F := Ideal) x0 x1 x2 x3
      = Cert.Spec.dense
          (Cert.Spec.aggR (val_main_v3 (F := Ideal) x3) (val_main_v24 (F := Ideal) x3) (val_main_v31 (F := Ideal) x3)
            (val_main_v19 (F := Ideal) x3)
            (Cert.Spec.dense
              (Cert.Spec.aggR (val_main_v3 (F := Ideal) x3) (val_main_v24 (F := Ideal) x3) (val_main_v31 (F := Ideal) x3)
                (val_main_v19 (F := Ideal) x3) x0)
              (val_main_v48 (F := Ideal) x1)))
          (val_main_v64 (F := Ideal) x2) := by
  have h47 : val_main_v47 (F := Ideal) x0 x3
      = Cert.Spec.aggR (val_main_v3 (F := Ideal) x3) (val_main_v24 (F := Ideal) x3) (val_main_v31 (F := Ideal) x3)
          (val_main_v19 (F := Ideal) x3) x0 := agg_read x3 x0
  have h50 : val_main_v50 (F := Ideal) x0 x1 x3
      = Cert.Spec.dense (val_main_v47 (F := Ideal) x0 x3) (val_main_v48 (F := Ideal) x1) := dense_read _ _
  have h63 : val_main_v63 (F := Ideal) x0 x1 x3
      = Cert.Spec.aggR (val_main_v3 (F := Ideal) x3) (val_main_v24 (F := Ideal) x3) (val_main_v31 (F := Ideal) x3)
          (val_main_v19 (F := Ideal) x3) (val_main_v50 (F := Ideal) x0 x1 x3) := agg_read x3 _
  have h66 : val_main_v66 (F := Ideal) x0 x1 x2 x3
      = Cert.Spec.dense (val_main_v63 (F := Ideal) x0 x1 x3) (val_main_v64 (F := Ideal) x2) := dense_read _ _
  rw [h66, h63, h50, h47]

end Cert.ReferenceIdeal.RefValue

end
-- ==== Proof.Law.lean ====
/-
  The law that joins the two arrangements of the normalised aggregation, and its consequence for two layers.

  For a weight `dis` that is everywhere nonnegative and never +∞, and edges whose wrapped source word names the node the
  edge contributes to, summing the doubly weighted rows is scaling the rows first, summing, and scaling the sum's row:
  multiplication by such a weight goes through a finite sum of extended reals, and the products regroup by
  associativity.  A dense layer of scaled rows is the layer that scales the rows inside, by commutativity.  Two such
  layers chained give the same table in either arrangement.  The weight `x ^ (-1/2)` of anything at least one is
  nonnegative and not +∞ (a real power of a real, or zero at +∞).
-/
import proofs.«105631_j54949811585248_2_alg».proof.Proof.Spec

noncomputable section

open scoped BigOperators

namespace Cert.Spec

open Idealize.ShloMosaic Idealize.ShloMosaic.ValueIdx

variable (src srcw dstw : SE.Idx → BitVec 32) (dis : SN.Idx → EReal)

/-- The doubly weighted sum over the edges into a node is the node's weight times the sum of the singly weighted rows. -/
theorem aggR_eq (hdis : ∀ s, 0 ≤ dis s ∧ dis s ≠ ⊤)
    (hw : ∀ (e : Fin 1700000) (n : Fin 100000), (src (ix1 e)).toInt = (n.val : Int) → rowOf (srcw (ix1 e)) = n)
    (H : SNxD.Idx → EReal) :
    aggR src srcw dstw dis H = scaleRows dis (aggK src dstw (scaleRows dis H)) := by
  funext i
  unfold aggR scaleRows aggK
  dsimp only
  rw [← Cert.LibSumMulNonneg.univ_mul_sum_of_nonneg_of_ne_top (hdis _).1 (hdis _).2]
  refine Finset.sum_congr rfl fun e _ => ?_
  by_cases h : (src (ix1 e)).toInt = ((i 0).val : Int)
  · rw [if_pos h, if_pos h, hw e (i 0) h, mul_assoc]
  · rw [if_neg h, if_neg h, mul_zero]

variable (dcol : SNx1.Idx → EReal)

/-- A layer that scales the rows inside is the plain layer of the scaled rows. -/
theorem layer_eq_dense (hd : ∀ r : Fin 100000, dcol (ix2 r (0 : Fin 1)) = dis (ix1 r)) (A : SNxD.Idx → EReal) (Wt : SDxD.Idx → EReal) :
    layer A dcol Wt = dense (scaleRows dis A) Wt := by
  funext i
  obtain ⟨p, q, rfl⟩ : ∃ (p : Fin 100000) (q : Fin 128), i = ix2 p q := ⟨i 0, i 1, eq_ix2 i⟩
  show max (∑ k : Fin 128, (A (ix2 p k) * dcol (ix2 p (0 : Fin 1))) * Wt (ix2 k q)) 0
    = max (∑ k : Fin 128, (dis (ix1 p) * A (ix2 p k)) * Wt (ix2 k q)) 0
  refine congrArg (fun x => max x 0) (Finset.sum_congr rfl fun k _ => ?_)
  rw [hd p, mul_comm (A _)]

/-- The layer with its rows scaled again is the scaled rows of the layer. -/
theorem layerScaled_eq (hd : ∀ r : Fin 100000, dcol (ix2 r (0 : Fin 1)) = dis (ix1 r)) (A : SNxD.Idx → EReal) (Wt : SDxD.Idx → EReal) :
    layerScaled A dcol Wt = scaleRows dis (layer A dcol Wt) := by
  funext i
  obtain ⟨p, q, rfl⟩ : ∃ (p : Fin 100000) (q : Fin 128), i = ix2 p q := ⟨i 0, i 1, eq_ix2 i⟩
  show layer A dcol Wt (ix2 p q) * dcol (ix2 p (0 : Fin 1)) = dis (ix1 p) * layer A dcol Wt (ix2 p q)
  rw [hd p, mul_comm]

/-- Two layers: scaling inside each layer and between the layers gives the table the doubly weighted sums give. -/
theorem two_layers (hdis : ∀ s, 0 ≤ dis s ∧ dis s ≠ ⊤)
    (hw : ∀ (e : Fin 1700000) (n : Fin 100000), (src (ix1 e)).toInt = (n.val : Int) → rowOf (srcw (ix1 e)) = n)
    (hd : ∀ r : Fin 100000, dcol (ix2 r (0 : Fin 1)) = dis (ix1 r))
    (X : SNxD.Idx → EReal) (W1t W2t : SDxD.Idx → EReal) :
    layer (aggK src dstw (layerScaled (aggK src dstw (scaleRows dis X)) dcol W1t)) dcol W2t
      = dense (aggR src srcw dstw dis (dense (aggR src srcw dstw dis X) W1t)) W2t := by
  rw [aggR_eq src srcw dstw dis hdis hw X, ← layer_eq_dense dis dcol hd,
    aggR_eq src srcw dstw dis hdis hw, ← layerScaled_eq dis dcol hd, ← layer_eq_dense dis dcol hd]

/-- The f32 word `0xBF000000` denotes `-1/2`. -/
theorem ofBits_neg_half_f32 : Ideal.ofBits .f32 0xBF000000#32 = ((-(1 / 2) : ℝ) : EReal) := by
  simp [Ideal.ofBits, Ideal.ieee]
  norm_cast
  norm_num

/-- Anything at least one, raised to `-1/2`, is nonnegative and not +∞. -/
theorem pow_neg_half (x : EReal) (hx : 1 ≤ x) :
    0 ≤ Ideal.pow x (Ideal.ofBits .f32 0xBF000000#32) ∧ Ideal.pow x (Ideal.ofBits .f32 0xBF000000#32) ≠ ⊤ := by
  rw [ofBits_neg_half_f32]
  induction x using EReal.rec with
  | bot => exact absurd (le_bot_iff.mp hx) (by simpa using EReal.coe_ne_bot (1 : ℝ))
  | top =>
    have h1 : ¬ ((0 : EReal) < ((-(1 / 2) : ℝ) : EReal)) := by
      rw [not_lt]; exact_mod_cast (by norm_num : (-(1 / 2) : ℝ) ≤ 0)
    have h2 : ((-(1 / 2) : ℝ) : EReal) ≠ 0 := by exact_mod_cast (by norm_num : (-(1 / 2) : ℝ) ≠ 0)
    rw [Ideal.pow_top, if_neg h1, if_neg h2]
    exact ⟨le_refl _, EReal.zero_ne_top⟩
  | coe r =>
    have hr : (1 : ℝ) ≤ r := by exact_mod_cast hx
    rw [Ideal.pow_coe_coe]
    exact ⟨by exact_mod_cast Real.rpow_nonneg (by linarith) _, EReal.coe_ne_top _⟩

end Cert.Spec

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibScatterZero.lean ====
/-
  Two laws about an accumulating scatter (`x.at[rows].add(updates)`) over the extended reals and about the wrap of
  negative row numbers that precedes it, generic in the shapes.

  A program that accumulates updates into an array `x` at given row numbers may first wrap a negative row number `i`
  to `i + n`, and may start either from `x` itself or from zeros, adding `x` afterwards.

  * On a nonnegative row number the wrap does nothing: the test `i < 0` fails, so the selection keeps `i`.
  * Over the extended reals an accumulating scatter is, entry by entry, the starting entry plus the sum of the
    updates that land on it; starting from zero and adding `x` afterwards is therefore the same as starting
    from `x` — only `0 + s = s` and the commutativity of the sum are used, which hold at the infinities too.
-/
import Idealize.ShloMosaic.PureOps.Ideal
import Idealize.ShloMosaic.Lib.Affine

noncomputable section

namespace Cert.LibScatterZero

open Idealize.ShloMosaic

/-- A word that is nonnegative read signed is not below zero, so wrapping leaves it alone. -/
theorem wrap_of_nonneg (w n : BitVec 32) (h : IntOp.cmpi .sge w 0#32 = 1#1) :
    Scalar.select (IntOp.cmpi .slt w 0#32) (IntOp.addi w n) w = w := by
  unfold Scalar.select
  refine if_neg fun hlt => ?_
  have h0 := IntOp.cmpi_sge.1 h
  have h1 := IntOp.cmpi_slt.1 hlt
  omega

/-- Accumulating the updates into zeros and then adding `x` gives, at every entry, what accumulating them into
    `x` gives. -/
theorem scatter_zero_add {s si su : Shape} (d : ScatterDims s si su) {w : Nat} (x z : s.Idx → EReal) (idx : IVec si w)
    (upd : su.Idx → EReal) (hz : ∀ i, z i = 0) (i : s.Idx) :
    Ideal.hostScatterAdd d z idx upd i + x i = Ideal.hostScatterAdd d x idx upd i := by
  unfold Ideal.hostScatterAdd
  rw [hz i, zero_add, add_comm]

/-- The same for whole arrays, in the host operations' own spelling. -/
theorem host_scatter_zero_add {s si su : Shape} (d : ScatterDims s si su) {w : Nat} (x z : FVec Ideal s .f32) (idx : IVec si w)
    (upd : FVec Ideal su .f32) (hz : ∀ i, z i = (0 : EReal)) :
    addf (Host.scatterAdd d z idx upd) x = Host.scatterAdd d x idx upd :=
  funext fun i => scatter_zero_add d x z idx upd hz i

end Cert.LibScatterZero

end
-- ==== Proof.Weights.lean ====
/-
  Two facts about the per-node weight and the wrapped source words, as the reference's operations compute them.

  The weight is `(max 1 (deg))^(-1/2)`: whatever the degree term is, the base is at least one, so the weight is
  nonnegative and not +∞.  A source word whose signed value is a node number `n` is not negative, so the wrap
  `select (w < 0, w + 100000, w)` leaves it alone and the row it names is `n`.
-/
import proofs.«105631_j54949811585248_2_alg».proof.Proof.Gen.ReferenceIdeal.Read
import proofs.«105631_j54949811585248_2_alg».proof.Proof.Law
import proofs.«105631_j54949811585248_2_alg».proof.Proof.LibRecipMean
import proofs.«105631_j54949811585248_2_alg».proof.Proof.LibScatterZero

noncomputable section

namespace Cert.ReferenceIdeal.Weights

open Cert.ReferenceIdeal Cert.ReferenceIdeal.Gen Cert.ReferenceIdeal.Read Idealize.ShloMosaic Idealize.ShloMosaic.TcCoe
  Idealize.ShloMosaic.ValueIdx

variable (x3 : (⟨S2x1600000, .i32⟩ : BufTy).Contents (Elt Ideal))

/-- Every node's weight is nonnegative and not +∞. -/
theorem weight_nonneg_ne_top (s : S100000.Idx) :
    0 ≤ val_main_v19 (F := Ideal) x3 s ∧ val_main_v19 (F := Ideal) x3 s ≠ ⊤ := by
  rw [val_main_v19_apply, Ideal.hostPowf_def, val_main_v18_apply, val_main_cst_4_apply, Ideal.ofBits_def]
  refine Cert.Spec.pow_neg_half _ ?_
  rw [val_main_v17_apply, Ideal.maximumf_def, val_main_call0_v1_apply, val_main_call0_v0_apply, val_main_cst_3_apply,
    Ideal.ofBits_def, Cert.LibRecipMean.ofBits_one_f32]
  exact le_max_left _ _

/-- A source word that names node `n` names it after the wrap too. -/
theorem wrapped_source_row (e : Fin 1700000) (n : Fin 100000)
    (h : (val_main_v3 (F := Ideal) x3 (ix1 e)).toInt = (n.val : Int)) :
    Cert.Spec.rowOf (val_main_v24 (F := Ideal) x3 (ix1 e)) = n := by
  have hw : val_main_v24 (F := Ideal) x3 (ix1 e) = val_main_v3 (F := Ideal) x3 (ix1 e) := by
    rw [val_main_v24_apply, val_main_v21_apply, val_main_v23_apply, val_main_v20_apply, val_main_c_apply]
    refine Cert.LibScatterZero.wrap_of_nonneg _ _ (IntOp.cmpi_sge.2 ?_)
    rw [h]
    show (0 : Int) ≤ (n.val : Int)
    exact Int.natCast_nonneg _
  rw [hw]
  exact Cert.LibGatherRows.clampRow_of_toInt _ _ n h

end Cert.ReferenceIdeal.Weights

end
-- ==== Proof.Bridge.lean ====
/-
  The kernel's result is the reference's.

  The kernel scales the rows of the input table by the per-node weight, sums the rows at the edges' destinations into
  the edges' source rows with no per-edge factor, and lets each of its two tiled layers scale the summed rows by the
  weight again (the first layer also scales its output rows, ready for the second sum).  The reference weights every
  edge's row by the product of the weights of its two ends.  `Cert.Spec.two_layers` says the two tables are equal
  entry by entry; this file reads the kernel's buffers and the reference's term as the two sides of that law.
-/
import proofs.«105631_j54949811585248_2_alg».proof.Proof.KernelRun
import proofs.«105631_j54949811585248_2_alg».proof.Proof.RegionValue
import proofs.«105631_j54949811585248_2_alg».proof.Proof.HostValues
import proofs.«105631_j54949811585248_2_alg».proof.Proof.RefValue
import proofs.«105631_j54949811585248_2_alg».proof.Proof.Weights

noncomputable section

namespace Cert.Proof.Bridge

open Idealize.ShloMosaic Idealize.ShloMosaic.TcCoe Idealize.SL.Sem Idealize.ShloMosaic.ValueIdx

section Kernel

open Cert.KernelIdeal Cert.KernelIdeal.Gen

variable (m : (ℓ : Loc nD τ sig) → Buf (Elt Ideal) ℓ) (ρ : Dev nD → PrngReg) (c : Dev nD)

/-- The kernel's result buffer after the second region, as the two layers over the two sums. -/
theorem kernel_result :
    Gen.W6 (F := Ideal) m ρ c (Proc.devRef .tc main_v49)
      = Cert.Spec.layer
          (Cert.Spec.aggK (Cert.ReferenceIdeal.Read.val_main_v3 (F := Ideal) (m ((c.tc : Thread nD τ).loc main_arg3)))
            (Cert.ReferenceIdeal.Read.val_main_v31 (F := Ideal) (m ((c.tc : Thread nD τ).loc main_arg3)))
            (Cert.Spec.layerScaled
              (Cert.Spec.aggK (Cert.ReferenceIdeal.Read.val_main_v3 (F := Ideal) (m ((c.tc : Thread nD τ).loc main_arg3)))
                (Cert.ReferenceIdeal.Read.val_main_v31 (F := Ideal) (m ((c.tc : Thread nD τ).loc main_arg3)))
                (Cert.Spec.scaleRows (Cert.ReferenceIdeal.Read.val_main_v19 (F := Ideal) (m ((c.tc : Thread nD τ).loc main_arg3)))
                  (m ((c.tc : Thread nD τ).loc main_arg0))))
              (Gen.W3 (F := Ideal) m ρ c (Proc.devRef .tc main_v20))
              (Gen.W3 (F := Ideal) m ρ c (Proc.devRef .tc main_v24))))
          (Gen.W3 (F := Ideal) m ρ c (Proc.devRef .tc main_v20))
          (Gen.W5 (F := Ideal) m ρ c (Proc.devRef .tc main_v25)) := by
  have h6 : Gen.W6 (F := Ideal) m ρ c (Proc.devRef .tc main_v49)
      = Cert.Spec.layer (Gen.W5 (F := Ideal) m ρ c (Proc.devRef .tc main_v48)) (Gen.W5 (F := Ideal) m ρ c (Proc.devRef .tc main_v20))
          (Gen.W5 (F := Ideal) m ρ c (Proc.devRef .tc main_v25)) :=
    (Gen.W6_arr (F := Ideal) m ρ c 3).trans (Cert.KernelIdeal.RegionValue.final1 (Gen.V5 (F := Ideal) m ρ) c)
  have h4 : Gen.W4 (F := Ideal) m ρ c (Proc.devRef .tc main_v37)
      = Cert.Spec.layerScaled (Gen.W3 (F := Ideal) m ρ c (Proc.devRef .tc main_v36)) (Gen.W3 (F := Ideal) m ρ c (Proc.devRef .tc main_v20))
          (Gen.W3 (F := Ideal) m ρ c (Proc.devRef .tc main_v24)) :=
    (Gen.W4_arr (F := Ideal) m ρ c 3).trans (Cert.KernelIdeal.RegionValue.final0 (Gen.V3 (F := Ideal) m ρ) c)
  rw [h6, Cert.KernelIdeal.HostValues.v48_eq, h4, Cert.KernelIdeal.HostValues.v36_eq, Cert.KernelIdeal.HostValues.v20_eq5]

end Kernel

section Both

open Cert.KernelIdeal Cert.KernelIdeal.Gen

variable (m : (ℓ : Loc nD τ sig) → Buf (Elt Ideal) ℓ) (ρ : Dev nD → PrngReg) (c : Dev nD)

/-- The first layer's table as the kernel stages it is the transposed first weight matrix. -/
theorem table1 : Gen.W3 (F := Ideal) m ρ c (Proc.devRef .tc main_v24)
    = Cert.ReferenceIdeal.Read.val_main_v48 (F := Ideal) (m ((c.tc : Thread nD τ).loc main_arg1)) := by
  funext i
  obtain ⟨k, q, rfl⟩ : ∃ (k : Fin 128) (q : Fin 128), i = ix2 k q := ⟨i 0, i 1, eq_ix2 i⟩
  rw [Cert.KernelIdeal.HostValues.v24_eq, Cert.ReferenceIdeal.Read.val_main_v48_apply]
  refine congrArg _ (funext fun a => ?_)
  match a with
  | ⟨0, _⟩ => rfl
  | ⟨1, _⟩ => rfl

/-- The second layer's table is the transposed second weight matrix. -/
theorem table2 : Gen.W5 (F := Ideal) m ρ c (Proc.devRef .tc main_v25)
    = Cert.ReferenceIdeal.Read.val_main_v64 (F := Ideal) (m ((c.tc : Thread nD τ).loc main_arg2)) := by
  funext i
  obtain ⟨k, q, rfl⟩ : ∃ (k : Fin 128) (q : Fin 128), i = ix2 k q := ⟨i 0, i 1, eq_ix2 i⟩
  rw [Cert.KernelIdeal.HostValues.v25_eq, Cert.ReferenceIdeal.Read.val_main_v64_apply]
  refine congrArg _ (funext fun a => ?_)
  match a with
  | ⟨0, _⟩ => rfl
  | ⟨1, _⟩ => rfl

/-- THE TWO RESULTS AGREE: the reference's result term at the kernel's arguments is the kernel's result buffer. -/
theorem results_agree :
    Cert.ReferenceIdeal.Read.val_main_v66 (F := Ideal) (m ((c.tc : Thread nD τ).loc main_arg0)) (m ((c.tc : Thread nD τ).loc main_arg1))
        (m ((c.tc : Thread nD τ).loc main_arg2)) (m ((c.tc : Thread nD τ).loc main_arg3))
      = Gen.W6 (F := Ideal) m ρ c (Proc.devRef .tc main_v49) := by
  rw [Cert.ReferenceIdeal.RefValue.result_eq, kernel_result, table1, table2]
  exact (Cert.Spec.two_layers _ _ _ _ _
    (Cert.ReferenceIdeal.Weights.weight_nonneg_ne_top _)
    (Cert.ReferenceIdeal.Weights.wrapped_source_row _)
    (fun r => Cert.KernelIdeal.HostValues.v20_eq m ρ c (ix2 r (0 : Fin 1))) _ _ _).symm

end Both

end Cert.Proof.Bridge

end
-- ==== Proof.lean ====
/-
  The certificate of a two-layer graph convolution kernel against its plain reference.

  Both programs compute, on a graph of 100000 nodes and 1700000 edges (the listed ones and a loop per node), the weight
  `dis = (max 1 deg)^(-1/2)` of every node and then twice: aggregate the rows of a table along the edges with the
  normalisation `dis (source) · dis (destination)`, multiply by a 128 × 128 table, take the maximum with zero.  The
  reference weights every edge's row by the product of its ends' weights.  The kernel scales rows by the weight before the
  sum and again after it — inside its two tiled layers, each of which works on blocks of 5000 rows — so no per-edge product
  is formed.  Over the extended reals the two arrangements agree because the weight is nonnegative and never +∞, so it
  goes through the finite sum over a node's incoming edges, and a contributing edge's source row is the node itself
  (`Cert.Spec.two_layers`).  No finiteness of the inputs is used.

  The frames of the two kernel programs are the generated ones; the reference's frame is its generated run with the result
  dropped; the idealization rewrote no operation, so nothing is owed for it.  The kernel's run names its result buffer
  (`RunValue.run_value`), the two regions' output arrays are read block by block (`RegionValue.final0`, `final1`), the
  host operations around them entry by entry (`HostValues`), and the reference's term likewise (`RefValue.result_eq`).
-/
import proofs.«105631_j54949811585248_2_alg».proof.Defs
import proofs.«105631_j54949811585248_2_alg».proof.Proof.Gen.Kernel
import proofs.«105631_j54949811585248_2_alg».proof.Proof.Gen.Kernel.Skeleton
import proofs.«105631_j54949811585248_2_alg».proof.Proof.Gen.Kernel.Launch
import proofs.«105631_j54949811585248_2_alg».proof.Proof.Gen.Kernel.Points
import proofs.«105631_j54949811585248_2_alg».proof.Proof.Gen.Kernel.Frame
import proofs.«105631_j54949811585248_2_alg».proof.Proof.Gen.KernelIdeal
import proofs.«105631_j54949811585248_2_alg».proof.Proof.Gen.KernelIdeal.Skeleton
import proofs.«105631_j54949811585248_2_alg».proof.Proof.Gen.KernelIdeal.Launch
import proofs.«105631_j54949811585248_2_alg».proof.Proof.Gen.KernelIdeal.Points
import proofs.«105631_j54949811585248_2_alg».proof.Proof.Gen.KernelIdeal.Frame
import proofs.«105631_j54949811585248_2_alg».proof.Proof.Gen.ReferenceIdeal
import proofs.«105631_j54949811585248_2_alg».proof.Proof.Gen.ReferenceIdeal.Run
import proofs.«105631_j54949811585248_2_alg».proof.Proof.Gen.ReferenceIdeal.Read
import proofs.«105631_j54949811585248_2_alg».proof.Proof.Gen.Pre_finite_inputs
import proofs.«105631_j54949811585248_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the two programs, run from memories that agree on the arguments, end with the same table. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v49),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2]
  exact Cert.Proof.Bridge.results_agree m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
